-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1024x4096 : Shape := ⟨2, ![1024, 4096]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096x4096, .bf16⟩
  | .hbm, ⟨11, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S1024x4096, .f32⟩
  | .local _ .vmem, ⟨9, _⟩ => ⟨S1024x4096, .f32⟩
  | .local _ .vmem, ⟨10, _⟩ => ⟨S1024x4096, .bf16⟩
  | .local _ .vmem, ⟨11, _⟩ => ⟨S1024x4096, .bf16⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Layer.lean ====
/-
  The layer both programs compute, written once as functions of the argument arrays, index by index, on the
  extended reals.

  * `sample μ σ ε` is a reparameterised Gaussian draw taken entry by entry: `μ + exp σ · ε`. The weight matrix is the
    draw over the three [4096, 4096] arrays, the bias vector the draw over the three [4096] arrays.
  * `affine x w b` is the linear map with the weight's ROWS as output features: entry (n, o) is
    `Σ_k x[n, k] · w[o, k] + b[o]`, the contraction running over the 4096 input features.

  Nothing here needs an input to be finite: both programs build these two terms from the same operations, so the
  bridge on either side only re-indexes a sum along a bijection and never distributes a product over a sum.
-/
import Idealize.ShloMosaic.PureOps.Ideal
import Idealize.ShloMosaic.Lib.ValueIdx

noncomputable section

open scoped BigOperators

namespace Cert.Layer

open Idealize.ShloMosaic Idealize.ShloMosaic.ValueIdx

/-- The activations' shape, which is also the result's: 8192 rows of 4096 features. -/
abbrev SX : Shape := ⟨2, ![8192, 4096]⟩
/-- The weight's shape: 4096 output features by 4096 input features. -/
abbrev SW : Shape := ⟨2, ![4096, 4096]⟩
/-- The bias's shape: one entry per output feature. -/
abbrev SB : Shape := ⟨1, ![4096]⟩

/-- A reparameterised draw, entry by entry: mean plus the exponential of the log-deviation times the noise. -/
def sample {S : Shape} (mu ls eps : S.Idx → EReal) : S.Idx → EReal :=
  fun j => mu j + Ideal.exp (ls j) * eps j

/-- Row `n` of the activations against row `o` of the weight, plus the bias at `o`. -/
def affine (x : SX.Idx → EReal) (w : SW.Idx → EReal) (b : SB.Idx → EReal) : SX.Idx → EReal :=
  fun i => (∑ k : Fin 4096, x (ix2 (⟨(i 0).val, (i 0).isLt⟩ : Fin 8192) k) * w (ix2 (⟨(i 1).val, (i 1).isLt⟩ : Fin 4096) k))
    + b (ix1 (⟨(i 1).val, (i 1).isLt⟩ : Fin 4096))

/-- Two draws agree at a pair of indices when their three arrays do. (Stated over plain functions so that a block of an
    array, read through its window, can be put for the left side.) -/
theorem sample_congr {S T : Shape} (a0 a1 a2 : S.Idx → EReal) (b0 b1 b2 : T.Idx → EReal) (j : S.Idx) (i : T.Idx)
    (h0 : a0 j = b0 i) (h1 : a1 j = b1 i) (h2 : a2 j = b2 i) : sample a0 a1 a2 j = sample b0 b1 b2 i := by
  unfold sample
  rw [h0, h1, h2]

/-- The affine map at `i` from BLOCKS of its three arrays: if row `p` of a [1024, 4096] block is row `i 0` of the
    activations, row `q` of another is row `i 1` of the weight, and entry `q` of a [1024] block is entry `i 1` of the
    bias, then the block-local contraction plus the block-local bias is the map's entry at `i`. -/
theorem affine_of_blocks (x : SX.Idx → EReal) (w : SW.Idx → EReal) (b : SB.Idx → EReal)
    (xb wb : (⟨2, ![1024, 4096]⟩ : Shape).Idx → EReal) (bb : (⟨1, ![1024]⟩ : Shape).Idx → EReal) (i : SX.Idx) (p q : Fin 1024)
    (hx : ∀ k : Fin 4096, xb (ix2 p k) = x (ix2 (⟨(i 0).val, (i 0).isLt⟩ : Fin 8192) k))
    (hw : ∀ k : Fin 4096, wb (ix2 q k) = w (ix2 (⟨(i 1).val, (i 1).isLt⟩ : Fin 4096) k))
    (hb : bb (ix1 q) = b (ix1 (⟨(i 1).val, (i 1).isLt⟩ : Fin 4096))) :
    (∑ k : Fin 4096, xb (ix2 p k) * wb (ix2 q k)) + bb (ix1 q) = affine x w b i := by
  unfold affine
  rw [hb]
  exact congrArg (· + b (ix1 (⟨(i 1).val, (i 1).isLt⟩ : Fin 4096))) (Finset.sum_congr rfl fun k _ => by rw [hx k, hw k])

/-- The same at an index given by its two coordinates. -/
theorem affine_ix2 (x : SX.Idx → EReal) (w : SW.Idx → EReal) (b : SB.Idx → EReal) (n : Fin 8192) (o : Fin 4096) :
    affine x w b (ix2 n o) = (∑ k : Fin 4096, x (ix2 n k) * w (ix2 o k)) + b (ix1 o) := rfl

end Cert.Layer

end
-- ==== Proof.ReferenceLayer.lean ====
/-
  The reference's result is the layer of `Layer.lean`: its ten host operations, read one at a time at an index by
  the generated read-at-an-index lemmas, are the sample of the weight, the sample of the bias, the contraction of the
  activations' row with the weight's row (jnp's einsum "ni,oi->no", a dot_general contracting axis 1 of both
  operands) and the bias broadcast along the rows.
-/
import proofs.«164283_j15109694947761_2_alg».proof.Proof.Gen.ReferenceIdeal.Read
import proofs.«164283_j15109694947761_2_alg».proof.Proof.Layer

noncomputable section

open scoped BigOperators

namespace Cert.ReferenceIdeal.LayerValue

open Cert.ReferenceIdeal Cert.ReferenceIdeal.Read Idealize.ShloMosaic Idealize.ShloMosaic.ValueIdx

/-- The left operand of the contraction is read at (row of the result, k). -/
theorem lidx_eq (i : S8192x4096.Idx) (k : Fin 4096) :
    lidx_main_v6 i k = ix2 (⟨(i 0).val, (i 0).isLt⟩ : Fin 8192) k :=
  funext fun a => Fin.ext (by match a with | ⟨0, _⟩ => rfl | ⟨1, _⟩ => rfl)

/-- The right operand is read at (column of the result, k): the weight's rows are the output features. -/
theorem ridx_eq (i : S8192x4096.Idx) (k : Fin 4096) :
    ridx_main_v6 i k = ix2 (⟨(i 1).val, (i 1).isLt⟩ : Fin 4096) k :=
  funext fun a => Fin.ext (by match a with | ⟨0, _⟩ => rfl | ⟨1, _⟩ => rfl)

/-- The two broadcasts of the bias read it at the result's column. -/
theorem bidx_eq (i : S8192x4096.Idx) :
    idx_main_v7 (idx_main_v8 i) = ix1 (⟨(i 1).val, (i 1).isLt⟩ : Fin 4096) :=
  funext fun a => Fin.ext (by match a with | ⟨0, _⟩ => rfl)

/-- The reference's result, as a function of its seven arguments, is the affine map of the activations, the sampled
    weight and the sampled bias. -/
theorem result_eq (x0 : (⟨S8192x4096, .f32⟩ : BufTy).Contents (Elt Ideal)) (x1 x2 : (⟨S4096x4096, .f32⟩ : BufTy).Contents (Elt Ideal))
    (x3 x4 : (⟨S4096, .f32⟩ : BufTy).Contents (Elt Ideal)) (x5 : (⟨S4096x4096, .f32⟩ : BufTy).Contents (Elt Ideal))
    (x6 : (⟨S4096, .f32⟩ : BufTy).Contents (Elt Ideal)) :
    val_main_v9 (F := Ideal) x0 x1 x2 x3 x4 x5 x6
      = Cert.Layer.affine x0 (Cert.Layer.sample x1 x2 x5) (Cert.Layer.sample x3 x4 x6) := by
  funext i
  rw [val_main_v9_apply, val_main_v6_apply, val_main_v8_apply, val_main_v7_apply, val_main_v5_apply, val_main_v4_apply,
    val_main_v3_apply]
  simp only [val_main_v2_apply, val_main_v1_apply, val_main_v0_apply, lidx_eq, ridx_eq, bidx_eq, Ideal.addf_def,
    Ideal.mulf_def, Ideal.hostUnary_exp_def]
  rfl

end Cert.ReferenceIdeal.LayerValue

end
-- ==== Proof.WeightPass.lean ====
/-
  The first pallas_call at the ideal values: the array it leaves is the sampled weight.

  Its grid has 16 points; at point `t` each of the three inputs and the output is staged as rows 256·t … 256·t + 255 of
  its [4096, 4096] array, all 4096 columns. The body is pointwise (mean + exp(log-deviation) · noise, then a change of
  float format, which is the identity on extended reals), so what point `t` writes back is those rows of `sample` of
  the three arrays as the call finds them; the 16 row bands cover the array, so the whole array ends at `sample`.
  Everything is stated at a parameter `V`, the buffer contents when the call is entered.
-/
import proofs.«164283_j15109694947761_2_alg».proof.Proof.Gen.KernelIdeal.Frame
import proofs.«164283_j15109694947761_2_alg».proof.Proof.Layer
import Idealize.ShloMosaic.Lib.Pipeline.Value
import Idealize.ShloMosaic.Lib.ValueIdx

set_option maxRecDepth 16384

noncomputable section

namespace Cert.KernelIdeal.WeightPass

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's one rectangle starts at the origin of its buffer. -/
theorem origin : (![0, 0] : Fin 2 → Nat) = fun _ => 0 := funext fun a => by fin_cases a <;> rfl

/-- The body's stored value, entry by entry, is the draw of its three loaded blocks. -/
theorem payload_eq (x0 x1 x2 : Vec Ideal S256x4096 .f32) :
    k0_pay1 x0 x1 x2 = Cert.Layer.sample (S := S256x4096) x0 x1 x2 := rfl

/-- The four windows move together: at every point they sit on the same band of rows, and on column block 0. -/
theorem bands : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- Every one of the 16 row bands is some point's. -/
theorem band_onto : ∀ q : Fin 16, ∃ t : Fin cfg0.N, win0_3.index t = ![q.val, 0] :=
  (by decide +kernel : ∀ q : Fin 16, ∃ t : Fin grid0.N, win0_3.index t = ![q.val, 0])

/-- What point `t` writes back is its band of the draw of the three arrays as the call finds them. -/
theorem flushed_eq (c : Dev nD) (t : Fin cfg0.N) :
    (dat0 V c).flushed 3 t = ((cfg0.win 3).blk t).view.read (Elt Ideal)
      (Cert.Layer.sample (S := S4096x4096) (V c main_arg1) (V c main_arg2) (V c main_arg5)) := by
  show (cfg0.win 3).cut (grid0.coords t) ((dat0 V c).after 3 t) = _
  rw [after0_3]
  unfold out0_3
  rw [View.canon_unit_zero origin]
  simp only [View.ld_unit_zero (S := S256x4096) origin]
  rw [payload_eq]
  obtain ⟨e0, e1, e2, e3, e4, e5⟩ := bands t
  funext j
  show Cert.Layer.sample (S := S256x4096) (iblk0 V c 0 t) (iblk0 V c 1 t) (iblk0 V c 2 t) j
    = Cert.Layer.sample (S := S4096x4096) (V c main_arg1) (V c main_arg2) (V c main_arg5) (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 4096 + 1 * (j 1).val = win0_3.index t (1 : Fin 2) * 4096 + 1 * (j 1).val; omega
  have h2 : ((cfg0.win 2).blk t).view.emb j = ((cfg0.win 3).blk t).view.emb j := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 4096 + 1 * (j 1).val = win0_3.index t (1 : Fin 2) * 4096 + 1 * (j 1).val; omega
  exact Cert.Layer.sample_congr (S := S256x4096) (T := S4096x4096) (iblk0 V c 0 t) (iblk0 V c 1 t) (iblk0 V c 2 t)
    (V c main_arg1) (V c main_arg2) (V c main_arg5) j (((cfg0.win 3).blk t).view.emb j)
    (congrArg (V c main_arg1) h0) (congrArg (V c main_arg2) h1) (congrArg (V c main_arg5) h2)

/-- An index of the weight array is in point `t`'s band iff each coordinate is in the band's range on its axis. -/
theorem mem_band (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v3).slice (win0_3.rect t)).set ↔ _
  rw [View.set_slice_whole, Rect.mem_set_unit]
  exact Iff.rfl

/-- Every index of the weight array lies in the band of the point that owns its row: row `r` is in band `r / 256`. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := band_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE WEIGHT ARRAY after the first call: the draw of the mean, log-deviation and noise arrays as the call finds them. -/
theorem weight_eq (c : Dev nD) :
    (dat0 V c).arrAt 3 cfg0.N = Cert.Layer.sample (S := S4096x4096) (V c main_arg1) (V c main_arg2) (V c main_arg5) :=
  (dat0 V c).arrAt_eq_of_cover 3 _ (fun t _ => flushed_eq V c t) covered

end Cert.KernelIdeal.WeightPass

end
-- ==== Proof.MatmulPass.lean ====
/-
  The second pallas_call at the ideal values: the array it leaves is the affine map of the activations, the weight
  array and the bias array as the call finds them.

  Its grid is 8 × 4. At point (a, b) the activations are staged as rows 1024·a … of all 4096 columns, the weight as
  rows 1024·b … of all 4096 columns, the bias as entries 1024·b …, and the output as the [1024, 1024] tile at
  (1024·a, 1024·b). The body converts the activations' format (the identity on extended reals), contracts row `p` of
  the activations' block with row `q` of the weight's block into a zero accumulator — a plain sum over the 4096 input
  features —, and adds the bias entry `q` broadcast along the rows. So what a point writes back is its tile of
  `affine`, and the 32 tiles cover the result. Stated at a parameter `V`, the buffer contents when the call is entered.
-/
import proofs.«164283_j15109694947761_2_alg».proof.Proof.Gen.KernelIdeal.Frame
import proofs.«164283_j15109694947761_2_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulPass

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's value at an entry of its tile -/

/-- The left operand of the body's contraction is read at (row of the tile, k) … -/
theorem lhs_row (i : S1024x1024.Idx) (k : dot_S1024x4096_S1024x4096_S1024x1024_1_1_0_0_n_n.contr.Idx) :
    (dot_S1024x4096_S1024x4096_S1024x1024_1_1_0_0_n_n.lhsIdx i k 0).val = (i 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl

/-- … and the right operand at (column of the tile, k): both operands are contracted along their second axis. -/
theorem rhs_row (i : S1024x1024.Idx) (k : dot_S1024x4096_S1024x4096_S1024x1024_1_1_0_0_n_n.contr.Idx) :
    (dot_S1024x4096_S1024x4096_S1024x1024_1_1_0_0_n_n.rhsIdx i k 0).val = (i 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl

/-- The matrix unit's product into a zero accumulator, at entry (p, q) of the tile: row `p` of the left block against
    row `q` of the right block, summed over the 4096 contracted positions. -/
theorem matmul_entry (l r : FVec Ideal S1024x4096 .bf16) (p q : Fin 1024) :
    matmul dot_S1024x4096_S1024x4096_S1024x1024_1_1_0_0_n_n none l r (constant (F := Ideal) S1024x1024 .f32 0x00000000#32) (ix2 p q)
      = ∑ k : Fin 4096, l (ix2 p k) * r (ix2 q k) := by
  refine (Ideal.matmul_constant_zero_apply dot_S1024x4096_S1024x4096_S1024x1024_1_1_0_0_n_n none l r (ix2 p q)).trans ?_
  rw [← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  have el : dot_S1024x4096_S1024x4096_S1024x1024_1_1_0_0_n_n.lhsIdx (ix2 p q) ((contrEquiv1 dot_S1024x4096_S1024x4096_S1024x1024_1_1_0_0_n_n 4096 rfl rfl).symm k) = ix2 p k := funext fun a => Fin.ext (by
    match a with
    | ⟨0, _⟩ => exact lhs_row _ _
    | ⟨1, _⟩ => exact (dot_S1024x4096_S1024x4096_S1024x1024_1_1_0_0_n_n.lhsIdx_val_of_single rfl _ _).trans hk)
  have er : dot_S1024x4096_S1024x4096_S1024x1024_1_1_0_0_n_n.rhsIdx (ix2 p q) ((contrEquiv1 dot_S1024x4096_S1024x4096_S1024x1024_1_1_0_0_n_n 4096 rfl rfl).symm k) = ix2 q k := funext fun a => Fin.ext (by
    match a with
    | ⟨0, _⟩ => exact rhs_row _ _
    | ⟨1, _⟩ => exact (dot_S1024x4096_S1024x4096_S1024x1024_1_1_0_0_n_n.rhsIdx_val_of_single rfl _ _).trans hk)
  rw [el, er]

/-- The body's stored value at entry (p, q): the contraction of the two loaded blocks' rows plus the loaded bias at
    `q` (the bias vector made a one-row matrix and that row repeated down the tile). -/
theorem payload_entry (x0 : FVec Ideal S1024x4096 .f32) (x1 : FVec Ideal S1024x4096 .bf16) (x2 : FVec Ideal S1024 .f32)
    (p q : Fin 1024) :
    k1_pay1 x0 x1 x2 (ix2 p q) = (∑ k : Fin 4096, x0 (ix2 p k) * x1 (ix2 q k)) + x2 (ix1 q) := by
  unfold k1_pay1
  refine (addf_apply _ _ (ix2 p q)).trans ?_
  rw [broadcastTo_1b_ab_apply, shapeCast_a_1a_apply, shapeCast_self, shapeCast_self]
  exact congrArg (· + x2 (ix1 q)) (matmul_entry _ x1 p q)

/-! ## From tiles to the array -/

/-- The body's two-axis rectangles start at the origin of their buffers … -/
theorem origin : (![0, 0] : Fin 2 → Nat) = fun _ => 0 := funext fun a => by fin_cases a <;> rfl
/-- … and so does its one-axis rectangle. -/
theorem origin1 : (![0] : Fin 1 → Nat) = fun _ => 0 := funext fun a => by fin_cases a; rfl

/-- How the windows sit against the output's tile at every point: the activations on the tile's row block and column
    block 0, the weight on the tile's COLUMN block (as a row block) and column block 0, the bias on the tile's column
    block. -/
theorem tiles : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2) :=
  (by decide +kernel : ∀ t : Fin grid1.N, _)

/-- Every one of the 8 × 4 tiles is some point's. -/
theorem tile_onto : ∀ (a : Fin 8) (b : Fin 4), ∃ t : Fin cfg1.N, win1_3.index t = ![a.val, b.val] :=
  (by decide +kernel : ∀ (a : Fin 8) (b : Fin 4), ∃ t : Fin grid1.N, win1_3.index t = ![a.val, b.val])

/-- What point `t` writes back is its tile of the affine map of the three arrays as the call finds them. -/
theorem flushed_eq (c : Dev nD) (t : Fin cfg1.N) :
    (dat1 V c).flushed 3 t = ((cfg1.win 3).blk t).view.read (Elt Ideal)
      (Cert.Layer.affine (V c main_arg0) (V c main_v3) (V c main_v2)) := by
  show (cfg1.win 3).cut (grid1.coords t) ((dat1 V c).after 3 t) = _
  rw [after1_3]
  unfold out1_3
  rw [View.canon_unit_zero origin]
  simp only [View.ld_unit_zero (S := S1024x4096) origin, View.ld_unit_zero (S := S1024) origin1]
  obtain ⟨e0, e1, e2, e3, e4⟩ := tiles t
  funext j
  obtain ⟨p, q, rfl⟩ : ∃ (p : Fin 1024) (q : Fin 1024), j = ix2 p q := ⟨j 0, j 1, eq_ix2 j⟩
  show k1_pay1 (iblk1 V c 0 t) (iblk1 V c 1 t) (iblk1 V c 2 t) (ix2 p q)
    = Cert.Layer.affine (V c main_arg0) (V c main_v3) (V c main_v2) (((cfg1.win 3).blk t).view.emb (ix2 p q))
  refine (payload_entry (iblk1 V c 0 t) (iblk1 V c 1 t) (iblk1 V c 2 t) p q).trans ?_
  -- row `p` of the activations' block is the tile entry's row of the activations
  have hx : ∀ k : Fin 4096, ((cfg1.win 0).blk t).view.emb (ix2 p k)
      = ix2 (⟨((((cfg1.win 3).blk t).view.emb (ix2 p q)) 0).val, ((((cfg1.win 3).blk t).view.emb (ix2 p q)) 0).isLt⟩ : Fin 8192) k := fun k => by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * k.val = k.val; omega
  -- row `q` of the weight's block is the weight's row at the tile entry's COLUMN
  have hw : ∀ k : Fin 4096, ((cfg1.win 1).blk t).view.emb (ix2 q k)
      = ix2 (⟨((((cfg1.win 3).blk t).view.emb (ix2 p q)) 1).val, ((((cfg1.win 3).blk t).view.emb (ix2 p q)) 1).isLt⟩ : Fin 4096) k := fun k => by
    funext a; apply Fin.ext
    match a with
    | ⟨0, _⟩ => show win1_1.index t (0 : Fin 2) * 1024 + 1 * q.val = win1_3.index t (1 : Fin 2) * 1024 + 1 * q.val; omega
    | ⟨1, _⟩ => show win1_1.index t (1 : Fin 2) * 4096 + 1 * k.val = k.val; omega
  -- entry `q` of the bias's block is the bias at the tile entry's column
  have hb : ((cfg1.win 2).blk t).view.emb (ix1 q)
      = ix1 (⟨((((cfg1.win 3).blk t).view.emb (ix2 p q)) 1).val, ((((cfg1.win 3).blk t).view.emb (ix2 p q)) 1).isLt⟩ : Fin 4096) := by
    funext a; apply Fin.ext
    match a with
    | ⟨0, _⟩ => show win1_2.index t (0 : Fin 1) * 1024 + 1 * q.val = win1_3.index t (1 : Fin 2) * 1024 + 1 * q.val; omega
  exact Cert.Layer.affine_of_blocks (V c main_arg0) (V c main_v3) (V c main_v2) (iblk1 V c 0 t) (iblk1 V c 1 t) (iblk1 V c 2 t)
    (((cfg1.win 3).blk t).view.emb (ix2 p q)) p q
    (fun k => congrArg (V c main_arg0) (hx k)) (fun k => congrArg (V c main_v3) (hw k)) (congrArg (V c main_v2) hb)

/-- An index of the result is in point `t`'s tile iff each coordinate is in the tile's range on its axis. -/
theorem mem_tile (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- Every index of the result lies in the tile of the point that owns it: entry (r, s) is in tile (r / 1024, s / 1024). -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := tile_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_tile]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE RESULT ARRAY after the second call: the affine map of the activations, the weight array and the bias array as
    the call finds them. -/
theorem result_eq (c : Dev nD) :
    (dat1 V c).arrAt 3 cfg1.N = Cert.Layer.affine (V c main_arg0) (V c main_v3) (V c main_v2) :=
  (dat1 V c).arrAt_eq_of_cover 3 _ (fun t _ => flushed_eq V c t) covered

end Cert.KernelIdeal.MatmulPass

end
-- ==== Proof.KernelLayer.lean ====
/-
  The idealized kernel program's result is the layer of `Layer.lean`.

  @main is three segments: a stretch of host operations (the bias sampled entry by entry), the first pallas_call (the
  weight sampled entry by entry, `WeightPass.lean`) and the second (the affine map, `MatmulPass.lean`). The buffer
  contents at the segment boundaries are a fold from the launch memory; the result buffer at the last boundary is
  what the second call leaves, which is the affine map of
    * the activations, untouched by everything before that call;
    * the weight buffer, which is what the first call leaves: the draw over three arguments the host stretch does not write;
    * the bias buffer, which the first call does not touch and the host stretch computed as the draw over three arguments.
  `run_named` is the launch over those segments with the result buffer read out of the final state beside the arguments.
-/
import proofs.«164283_j15109694947761_2_alg».proof.Proof.Gen.KernelIdeal.Frame
import proofs.«164283_j15109694947761_2_alg».proof.Proof.WeightPass
import proofs.«164283_j15109694947761_2_alg».proof.Proof.MatmulPass
import Idealize.ShloMosaic.Lib.StableHlo.Run

set_option maxRecDepth 16384

noncomputable section

namespace Cert.KernelIdeal.LayerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the result buffer read at the last boundary -/

set_option backward.isDefEq.respectTransparency.types false in
/-- Every weakly fair execution of @main terminates without a fault, the result buffer holding the last boundary's
    contents and every argument its launch contents. -/
theorem run_named : θ_run defs (onTc (τ := τ) (main (F := Ideal))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-! ## The boundaries' contents, read back to the launch memory -/

/-- The host stretch writes none of the three arrays the first call reads … -/
theorem entry_arg1 (c : Dev nD) : V1 m ρ c main_arg1 = m ((c : Thread nD τ).loc main_arg1) := by
  show StableHlo.after hostOps0 (W0 m ρ c) (Proc.devRef .tc main_arg1) = _
  after_results
  try rfl
theorem entry_arg2 (c : Dev nD) : V1 m ρ c main_arg2 = m ((c : Thread nD τ).loc main_arg2) := by
  show StableHlo.after hostOps0 (W0 m ρ c) (Proc.devRef .tc main_arg2) = _
  after_results
  try rfl
theorem entry_arg5 (c : Dev nD) : V1 m ρ c main_arg5 = m ((c : Thread nD τ).loc main_arg5) := by
  show StableHlo.after hostOps0 (W0 m ρ c) (Proc.devRef .tc main_arg5) = _
  after_results
  try rfl

/-- … so the weight buffer, when the second call is entered, is the draw over those three arguments. -/
theorem weight_read (c : Dev nD) : V2 m ρ c main_v3
    = Cert.Layer.sample (S := S4096x4096) (m ((c : Thread nD τ).loc main_arg1)) (m ((c : Thread nD τ).loc main_arg2)) (m ((c : Thread nD τ).loc main_arg5)) := by
  have h : V2 m ρ c main_v3 = Cert.Layer.sample (S := S4096x4096) (V1 m ρ c main_arg1) (V1 m ρ c main_arg2) (V1 m ρ c main_arg5) :=
    (W2_arr m ρ c 3).trans (WeightPass.weight_eq (V1 m ρ) c)
  rw [entry_arg1, entry_arg2, entry_arg5] at h
  exact h

/-- The bias buffer is not one of the first call's arrays, and the host stretch left the draw over three arguments in it. -/
theorem bias_read (c : Dev nD) : V2 m ρ c main_v2
    = Cert.Layer.sample (S := S4096) (m ((c : Thread nD τ).loc main_arg3)) (m ((c : Thread nD τ).loc main_arg4)) (m ((c : Thread nD τ).loc main_arg6)) := by
  refine (W2_of_ne m ρ c main_v2 (by decide)).trans ?_
  show StableHlo.after hostOps0 (W0 m ρ c) (Proc.devRef .tc main_v2) = _
  after_results
  try rfl

/-- The activations are neither written by the host stretch nor one of the first call's arrays. -/
theorem activations_read (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results
  try rfl

/-- THE RESULT at the last boundary: the affine map of the activations, the sampled weight and the sampled bias, all of
    the launch memory's arguments. -/
theorem result_read (c : Dev nD) : W3 m ρ c (Proc.devRef .tc main_v4)
    = Cert.Layer.affine (m ((c : Thread nD τ).loc main_arg0))
        (Cert.Layer.sample (S := S4096x4096) (m ((c : Thread nD τ).loc main_arg1)) (m ((c : Thread nD τ).loc main_arg2)) (m ((c : Thread nD τ).loc main_arg5)))
        (Cert.Layer.sample (S := S4096) (m ((c : Thread nD τ).loc main_arg3)) (m ((c : Thread nD τ).loc main_arg4)) (m ((c : Thread nD τ).loc main_arg6))) := by
  have h : W3 m ρ c (Proc.devRef .tc main_v4) = Cert.Layer.affine (V2 m ρ c main_arg0) (V2 m ρ c main_v3) (V2 m ρ c main_v2) :=
    (W3_arr m ρ c 3).trans (MatmulPass.result_eq (V2 m ρ) c)
  rw [activations_read, weight_read, bias_read] at h
  exact h

end Cert.KernelIdeal.LayerValue

end
-- ==== Proof.lean ====
/-
  A linear layer with reparameterised Gaussian parameters, as a two-call TPU pipeline against its jnp reference.

  Both programs compute, on the extended reals,
      out[n, o] = Σ_k x[n, k] · (μ_w[o, k] + exp(σ_w[o, k]) · ε_w[o, k]) + (μ_b[o] + exp(σ_b[o]) · ε_b[o]),
  the contraction over the 4096 input features, n over 8192 rows, o over 4096 output features (`Proof/Layer.lean`).
  The kernel samples the bias on the host, samples the weight in a first call over 16 bands of 256 rows, and forms the
  affine map in a second call over 8 × 4 tiles of 1024 × 1024, each tile one contraction into a zero accumulator; its two
  changes of float format are the identity at the ideal values. The reference is the same formula as ten host
  operations, its einsum "ni,oi->no" the same contraction. The two sides are the SAME term, so nothing is used of the
  inputs being finite: the only step that is not a reading is re-indexing each contraction along the bijection between
  its one contracted axis and 0 … 4095.

  * the three frames: the two kernel programs' from their generated frame certificates, the reference's from its
    generated run with the result dropped;
  * the idealized kernel is the kernel's own text read at the ideal values (no operation was rewritten), so there is
    nothing to preserve;
  * the values: `Proof/KernelLayer.lean` (the kernel program's result buffer is the layer of its arguments) and
    `Proof/ReferenceLayer.lean` (so is the reference's), joined here on memories that agree on the arguments.
-/
import proofs.«164283_j15109694947761_2_alg».proof.Defs
import proofs.«164283_j15109694947761_2_alg».proof.Proof.Gen.Kernel
import proofs.«164283_j15109694947761_2_alg».proof.Proof.Gen.Kernel.Skeleton
import proofs.«164283_j15109694947761_2_alg».proof.Proof.Gen.Kernel.Launch
import proofs.«164283_j15109694947761_2_alg».proof.Proof.Gen.Kernel.Points
import proofs.«164283_j15109694947761_2_alg».proof.Proof.Gen.Kernel.Frame
import proofs.«164283_j15109694947761_2_alg».proof.Proof.Gen.KernelIdeal
import proofs.«164283_j15109694947761_2_alg».proof.Proof.Gen.KernelIdeal.Skeleton
import proofs.«164283_j15109694947761_2_alg».proof.Proof.Gen.KernelIdeal.Launch
import proofs.«164283_j15109694947761_2_alg».proof.Proof.Gen.KernelIdeal.Points
import proofs.«164283_j15109694947761_2_alg».proof.Proof.Gen.KernelIdeal.Frame
import proofs.«164283_j15109694947761_2_alg».proof.Proof.Gen.ReferenceIdeal
import proofs.«164283_j15109694947761_2_alg».proof.Proof.Gen.ReferenceIdeal.Run
import proofs.«164283_j15109694947761_2_alg».proof.Proof.Gen.ReferenceIdeal.Read
import proofs.«164283_j15109694947761_2_alg».proof.Proof.Gen.Pre_finite_inputs
import proofs.«164283_j15109694947761_2_alg».proof.Proof.Layer
import proofs.«164283_j15109694947761_2_alg».proof.Proof.ReferenceLayer
import proofs.«164283_j15109694947761_2_alg».proof.Proof.KernelLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, both programs end with their result buffer at the layer of those
    arguments: the kernel program by its run and the boundaries read back, the reference by its run and its operations
    read at an index. -/
theorem algebraic : Cert.algebraic_KernelIdeal_ReferenceIdeal := by
  intro m ρ m' ρ' _ hagree
  refine ⟨fun c => Cert.Layer.affine (m ((c.tc : Thread Cert.KernelIdeal.nD Cert.KernelIdeal.τ).loc Cert.KernelIdeal.main_arg0))
      (Cert.Layer.sample (S := Cert.Layer.SW) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)))
      (Cert.Layer.sample (S := Cert.Layer.SB) (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.LayerValue.result_read m ρ c), (h c).2⟩)
      (Cert.KernelIdeal.LayerValue.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v9_eq, Cert.ReferenceIdeal.LayerValue.result_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
